-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x4096 : Shape := ⟨2, ![4096, 4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  main_v18

def fn {F : FTy → Type} [FloatOps F] (main_arg0 : FVec F S4096x1024 .f32) (main_arg1 : FVec F S4096x1024 .f32) (main_arg2 : FVec F S4096x1024 .f32) (main_arg3 : FVec F S4096x4096 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_v13 main_v16
-- ==== Kernel.lean ====
abbrev S4096x1024 : Shape := ⟨2, ![4096, 1024]⟩
abbrev S4096x4096 : Shape := ⟨2, ![4096, 4096]⟩
abbrev S512x1024 : Shape := ⟨2, ![512, 1024]⟩
abbrev S512 : Shape := ⟨1, ![512]⟩
abbrev S512x1 : Shape := ⟨2, ![512, 1]⟩
abbrev S1x1 : Shape := ⟨2, ![1, 1]⟩
abbrev S128x1024 : Shape := ⟨2, ![128, 1024]⟩
abbrev S128x4096 : Shape := ⟨2, ![128, 4096]⟩
abbrev S128 : Shape := ⟨1, ![128]⟩
abbrev S128x1 : Shape := ⟨2, ![128, 1]⟩
abbrev S1x128x4096 : Shape := ⟨3, ![1, 128, 4096]⟩
abbrev S1 : Shape := ⟨1, ![1]⟩
abbrev S1x1x1 : Shape := ⟨3, ![1, 1, 1]⟩
abbrev S_ : Shape := ⟨0, ![]⟩

abbrev nBuf : Space → Nat
  | .hbm => 9
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x4096, .f32⟩
  | .hbm, ⟨4, _⟩ => ⟨S4096x1024, .bf16⟩
  | .hbm, ⟨5, _⟩ => ⟨S1x1, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S4096x1024, .bf16⟩
  | .local _ .vmem, ⟨9, _⟩ => ⟨S128x4096, .f32⟩
  | .local _ .vmem, ⟨10, _⟩ => ⟨S128x4096, .f32⟩
  | .local _ .vmem, ⟨11, _⟩ => ⟨S1x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem3_1 : DmaSem sig := 10
abbrev cc1_sem4_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4096x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S128x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

class Facts₀ : Prop where
  inb_S512x1024_S512x1024_0_0 : ∀ a, (![0, 0] : Fin 2 → Nat) a + S512x1024.size a ≤ S512x1024.size a
  h_S512x1024 : 0 < S512x1024.numel
  reduces_S512x1024_S512 : S512x1024.Reduces [1] S512
  shapeCasts_S512_S512x1 : S512.ShapeCasts S512x1
  broadcasts_S512x1_S512x1024 : S512x1.Broadcasts S512x1024
  bitsLt_bf16_f32 : FTy.bits .bf16 < FTy.bits .f32
  packedbf16_S512x1024_S512x1024_0_0 : (Rect.unit (s := S512x1024) ![0, 0] S512x1024.size inb_S512x1024_S512x1024_0_0).PackedRows (EltTy.packing .bf16)
  inb_S1x1_S1x1_0_0 : ∀ a, (![0, 0] : Fin 2 → Nat) a + S1x1.size a ≤ S1x1.size a
  h_S1x1 : 0 < S1x1.numel
  inb_S128x1024_S128x1024_0_0 : ∀ a, (![0, 0] : Fin 2 → Nat) a + S128x1024.size a ≤ S128x1024.size a
  h_S128x1024 : 0 < S128x1024.numel
  reduces_S128x1024_S128 : S128x1024.Reduces [1] S128
  shapeCasts_S128_S128x1 : S128.ShapeCasts S128x1
  broadcasts_S128x1_S128x1024 : S128x1.Broadcasts S128x1024
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S128x4096_S128x4096_0_0 : ∀ a, (![0, 0] : Fin 2 → Nat) a + S128x4096.size a ≤ S128x4096.size a
  h_S128x4096 : 0 < S128x4096.numel
  shapeCasts_S128x4096_S1x128x4096 : S128x4096.ShapeCasts S1x128x4096
  reduces_S1x128x4096_S1 : S1x128x4096.Reduces [1, 2] S1
  shapeCasts_S1_S1x1x1 : S1.ShapeCasts S1x1x1
  inpos_S1x1x1_p0_0_0 : ∀ a, (![0, 0, 0] : Fin 3 → Nat) a < S1x1x1.size a
  shapeCasts_S1x1_S1x1 : S1x1.ShapeCasts S1x1
  shapeCasts_S1x1_S_ : S1x1.ShapeCasts S_
  dot_S128x1024_S4096x1024_S128x4096_1_1_0_0_n_n_wf : DotDims.WF S128x1024 S4096x1024 S128x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .bf16 = 32 ∨ (Rect.block (s := S4096x1024) S512x1024.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x1024.size a ≤ S4096x1024.size a
  hwx1_0 : ∀ i : grid1.Coords, EltTy.bits .f32 = 32 ∨ (Rect.block (s := S4096x1024) S128x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x1024.size a ≤ S4096x1024.size a
  hwx1_1 : ∀ i : grid1.Coords, EltTy.bits .f32 = 32 ∨ (Rect.block (s := S4096x1024) S128x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x1024.size a ≤ S4096x1024.size a
  hwx1_2 : ∀ i : grid1.Coords, EltTy.bits .bf16 = 32 ∨ (Rect.block (s := S4096x1024) S4096x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x4096.size a ≤ S4096x4096.size a
  hwx1_3 : ∀ i : grid1.Coords, EltTy.bits .f32 = 32 ∨ (Rect.block (s := S4096x4096) S128x4096.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)

variable [Facts₀]

def dot_S128x1024_S4096x1024_S128x4096_1_1_0_0_n_n : DotDims S128x1024 S4096x1024 S128x4096 where
  lhsContracting := [1]
  rhsContracting := [1]
  lhsNonContracting := [0]
  rhsNonContracting := [0]
  lhsBatch := []
  rhsBatch := []
  wf := dot_S128x1024_S4096x1024_S128x4096_1_1_0_0_n_n_wf

abbrev win0_0 : Pipeline.Window sig grid0 :=
  Pipeline.Window.ofSpec (Memref.whole main_arg2) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S128x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S128x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S4096x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128x4096.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x1.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4096x1024 : Shape := ⟨2, ![4096, 1024]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩

abbrev nBuf : Space → Nat
  | .hbm => 73
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x4096, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1024x4096, .f32⟩
  | .hbm, ⟨25, _⟩ => ⟨S4096x4096, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S1024x4096, .f32⟩
  | .hbm, ⟨37, _⟩ => ⟨S4096x4096, .f32⟩
  | .hbm, ⟨38, _⟩ => ⟨S_, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S_, .f32⟩
  | .hbm, ⟨43, _⟩ => ⟨S4096x4096, .f32⟩
  | .hbm, ⟨44, _⟩ => ⟨S4096x4096, .f32⟩
  | .hbm, ⟨45, _⟩ => ⟨S_, .f32⟩
  | .hbm, ⟨46, _⟩ => ⟨S4096x4096, .f32⟩
  | .hbm, ⟨47, _⟩ => ⟨S4096x4096, .f32⟩
  | .hbm, ⟨48, _⟩ => ⟨S_, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S4096x4096, .f32⟩
  | .hbm, ⟨53, _⟩ => ⟨S_, .f32⟩
  | .hbm, ⟨54, _⟩ => ⟨S4096x4096, .f32⟩
  | .hbm, ⟨55, _⟩ => ⟨S4096x4096, .f32⟩
  | .hbm, ⟨56, _⟩ => ⟨S4096x4096, .f32⟩
  | .hbm, ⟨57, _⟩ => ⟨S_, .f32⟩
  | .hbm, ⟨58, _⟩ => ⟨S4096x4096, .f32⟩
  | .hbm, ⟨59, _⟩ => ⟨S4096x4096, .f32⟩
  | .hbm, ⟨60, _⟩ => ⟨S_, .f32⟩
  | .hbm, ⟨61, _⟩ => ⟨S4096x4096, .f32⟩
  | .hbm, ⟨62, _⟩ => ⟨S4096x4096, .f32⟩
  | .hbm, ⟨63, _⟩ => ⟨S_, .f32⟩
  | .hbm, ⟨64, _⟩ => ⟨S4096x4096, .f32⟩
  | .hbm, ⟨65, _⟩ => ⟨S4096x4096, .f32⟩
  | .hbm, ⟨66, _⟩ => ⟨S4096x4096, .f32⟩
  | .hbm, ⟨67, _⟩ => ⟨S4096x4096, .f32⟩
  | .hbm, ⟨68, _⟩ => ⟨S4096x4096, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_cst_8 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_10 : Ref sig .tc := ⟨.hbm, 57, rfl⟩
abbrev main_v42 : Ref sig .tc := ⟨.hbm, 58, rfl⟩
abbrev main_v43 : Ref sig .tc := ⟨.hbm, 59, rfl⟩
abbrev main_cst_11 : Ref sig .tc := ⟨.hbm, 60, rfl⟩
abbrev main_v44 : Ref sig .tc := ⟨.hbm, 61, rfl⟩
abbrev main_v45 : Ref sig .tc := ⟨.hbm, 62, rfl⟩
abbrev main_cst_12 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_13 : Ref sig .tc := ⟨.hbm, 69, rfl⟩
abbrev main_v51 : Ref sig .tc := ⟨.hbm, 70, rfl⟩
abbrev main_cst_14 : Ref sig .tc := ⟨.hbm, 71, rfl⟩
abbrev main_v52 : Ref sig .tc := ⟨.hbm, 72, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  transposes_S4096x1024_S1024x4096_1_0 : S4096x1024.Transposes [1, 0] S1024x4096
  bcast_S_S4096x4096 : S_.BroadcastsInDim S4096x4096 (![] : Fin 0 → Fin S4096x4096.rank)
  reducesTo_S4096x4096_S_d0_1 : S4096x4096.ReducesTo [0, 1] S_
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.KernelRun.lean ====
/-
  The kernel program's run with its result named.

  The program is two kernel regions followed by three host operations.  Its frame proof chains the three segments
  through the contents of the unscoped buffers at each boundary: the launch memory, what the first region's
  write-backs leave, what the second region's write-backs leave, and the host operations applied to that.  The same
  chain, read at the result buffer as well as at the arguments, says that every weakly fair execution ends with the
  result buffer at the last boundary's contents — the host operations' value of what the second region left — and the
  arguments as launched.
-/
import proofs.«127228_j23708219474588_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, without a fault, with the result buffer at the contents
    the chain of boundaries ends in, and the four arguments as launched. -/
theorem run_contents : θ_run defs (onTc (τ := τ) (main (F := F))) ⟨m, fun _ => 0, ρ⟩ (fun r => ∀ c : Dev nD,
      r.2.mem ((c.tc : Thread nD τ).loc main_v3) = W3 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v3 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.KernelIdeal.RunValue

end
-- ==== Proof.LibBlockedSum.lean ====
/-
  A finite sum taken block by block: an axis of `n = nb · bs` positions cut into `nb` consecutive blocks of `bs`.

  `blkIdx hn bs k q` is position `q` of block `k` (that is `bs · k + q`), `blockSum hn bs g k` the sum of `g` over block
  `k`, and `partialSum hn bs g k` the sum over the blocks `0 … k`.  In any commutative monoid the partial sums obey the
  recurrence of an accumulator that adds one block per step (`partialSum_zero`, `partialSum_succ`), and the partial
  sum after the last block is the sum over the whole axis (`partialSum_last`): the pairs (block, position in the
  block) enumerate the axis exactly once.  Only associativity and commutativity of the addition are used, so all of
  this holds on the extended reals as it stands, with no finiteness assumption.  This is the arithmetic of a matrix
  product whose contracted axis is visited block by block into an accumulator.
-/
import Mathlib.Algebra.BigOperators.Fin
import Mathlib.Algebra.BigOperators.Intervals
import Mathlib.Logic.Equiv.Fin.Basic

namespace BlockedSum

/-- Position `q` of block `k` on an axis of `n` positions cut into blocks of `bs` (reduced modulo `n` so that it is a
    position for every `k`; for a block that exists nothing is reduced: `blkIdx_val`). -/
def blkIdx {n : ℕ} (hn : 0 < n) (bs : ℕ) (k : ℕ) (q : Fin bs) : Fin n := ⟨(bs * k + q.val) % n, Nat.mod_lt _ hn⟩

theorem blkIdx_val {n nb bs : ℕ} (hn : 0 < n) (h : nb * bs = n) {k : ℕ} (hk : k < nb) (q : Fin bs) :
    (blkIdx hn bs k q).val = bs * k + q.val := by
  show (bs * k + q.val) % n = _
  apply Nat.mod_eq_of_lt
  have hq := q.isLt
  calc bs * k + q.val < bs * k + bs := by omega
    _ = bs * (k + 1) := (Nat.mul_succ bs k).symm
    _ ≤ bs * nb := Nat.mul_le_mul_left bs hk
    _ = n := by rw [Nat.mul_comm]; exact h

/-- The pairs (block, position in the block) are the positions of the axis. -/
def blkEquiv {n nb bs : ℕ} (h : nb * bs = n) : Fin nb × Fin bs ≃ Fin n := finProdFinEquiv.trans (finCongr h)

theorem blkEquiv_apply {n nb bs : ℕ} (hn : 0 < n) (h : nb * bs = n) (k : Fin nb) (q : Fin bs) :
    blkEquiv h (k, q) = blkIdx hn bs k.val q := by
  apply Fin.ext
  rw [blkIdx_val hn h k.isLt]
  show q.val + bs * k.val = _
  omega

variable {M : Type*} [AddCommMonoid M] {n : ℕ}

/-- The sum of `g` over block `k`. -/
def blockSum (hn : 0 < n) (bs : ℕ) (g : Fin n → M) (k : ℕ) : M := ∑ q : Fin bs, g (blkIdx hn bs k q)

/-- The sum of `g` over the blocks `0 … k`. -/
def partialSum (hn : 0 < n) (bs : ℕ) (g : Fin n → M) (k : ℕ) : M := ∑ k' ∈ Finset.range (k + 1), blockSum hn bs g k'

theorem partialSum_zero (hn : 0 < n) (bs : ℕ) (g : Fin n → M) : partialSum hn bs g 0 = blockSum hn bs g 0 := by
  unfold partialSum
  rw [Finset.sum_range_one]

theorem partialSum_succ (hn : 0 < n) (bs : ℕ) (g : Fin n → M) (k : ℕ) :
    partialSum hn bs g (k + 1) = partialSum hn bs g k + blockSum hn bs g (k + 1) := by
  unfold partialSum
  rw [Finset.sum_range_succ]

/-- All the blocks together are the whole axis. -/
theorem partialSum_last {nb bs : ℕ} (hn : 0 < n) (h : nb * bs = n) (g : Fin n → M) {k : ℕ} (hk : k + 1 = nb) :
    partialSum hn bs g k = ∑ i : Fin n, g i := by
  unfold partialSum
  rw [hk]
  calc ∑ k' ∈ Finset.range nb, blockSum hn bs g k'
      = ∑ k' : Fin nb, blockSum hn bs g k'.val := (Fin.sum_univ_eq_sum_range (fun k' => blockSum hn bs g k') nb).symm
    _ = ∑ k' : Fin nb, ∑ q : Fin bs, g (blkEquiv h (k', q)) := by simp only [blockSum, blkEquiv_apply hn h]
    _ = ∑ p : Fin nb × Fin bs, g (blkEquiv h p) := (Fintype.sum_prod_type (fun p : Fin nb × Fin bs => g (blkEquiv h p))).symm
    _ = ∑ i : Fin n, g i := (blkEquiv h).sum_comp g

end BlockedSum
-- ==== Proof.LossSpec.lean ====
/-
  The contrastive loss of two feature tables against a text table, as a function of the arrays.

  Each row of a table is divided by its Euclidean length, the length clamped from below at a small positive
  constant.  The cosine of row `r` of a feature table and row `c` of the text table is the inner product of the two
  scaled rows.  For a label `l` and a cosine `s` the pair's loss is `l · (1 − s) + (1 − l) · max (s − 1) 0`; the loss of
  the pair `(r, c)` adds the two feature tables' pair losses, and the result is the sum over all pairs divided by
  the number of pairs.  Everything is an extended real: the sums are sums in a commutative monoid, so they may be
  grouped in any way, and a row's scaled entries depend on that row alone — which is all that a computation taking
  the rows a block at a time uses.
-/
import Idealize.ShloMosaic.PureOps.Ideal.Laws
import Idealize.ShloMosaic.Lib.ValueIdx
import proofs.«127228_j23708219474588_1_alg».proof.Proof.LibBlockedSum

noncomputable section

namespace Contrastive

open Idealize.ShloMosaic Idealize.ShloMosaic.ValueIdx

/-- A matrix of extended reals, indexed as the arrays are. -/
abbrev Mat (a b : ℕ) : Type := (⟨2, ![a, b]⟩ : Shape).Idx → EReal

/-- The lower clamp of a row's length, the unit, the zero and the number of pairs, as the words that denote them. -/
def epsW : EReal := Ideal.ofBits .f32 0x322BCC77#32
def oneW : EReal := Ideal.ofBits .f32 0x3F800000#32
def zeroW : EReal := Ideal.ofBits .f32 0x00000000#32
def countW : EReal := Ideal.ofBits .f32 0x4B800000#32

/-- The clamped Euclidean length of row `r`. -/
def rowLen {a b : ℕ} (x : Mat a b) (r : Fin a) : EReal :=
  max (Ideal.sqrt (∑ k : Fin b, x (ix2 r k) * x (ix2 r k))) epsW

/-- Entry `k` of row `r` divided by the row's clamped length. -/
def unitEntry {a b : ℕ} (x : Mat a b) (r : Fin a) (k : Fin b) : EReal := Ideal.div (x (ix2 r k)) (rowLen x r)

/-- The table with every row scaled to unit length. -/
def unitRows {a b : ℕ} (x : Mat a b) : Mat a b := fun i => unitEntry x (i 0) (i 1)

theorem unitRows_apply {a b : ℕ} (x : Mat a b) (r : Fin a) (k : Fin b) : unitRows x (ix2 r k) = unitEntry x r k := rfl

/-- The loss of one pair with label `l` and cosine `s`. -/
def pairLoss (l s : EReal) : EReal := l * (oneW - s) + (oneW - l) * max (s - oneW) zeroW

/-- The loss of the pair (feature row `r`, text row `c`), the text rows `w` already of unit length: both feature
    tables' pair losses added. -/
def lossRaw {a b n : ℕ} (x0 x1 : Mat a b) (w : Mat n b) (lab : Mat a n) (r : Fin a) (c : Fin n) : EReal :=
  pairLoss (lab (ix2 r c)) (∑ k : Fin b, unitEntry x0 r k * w (ix2 c k))
    + pairLoss (lab (ix2 r c)) (∑ k : Fin b, unitEntry x1 r k * w (ix2 c k))

/-- The loss of feature row `r` against every text row. -/
def rowLoss {a b n : ℕ} (x0 x1 : Mat a b) (w : Mat n b) (lab : Mat a n) (r : Fin a) : EReal :=
  ∑ c : Fin n, lossRaw x0 x1 w lab r c

/-- The mean loss over all pairs. -/
def meanLoss (x0 x1 t : Mat 4096 1024) (lab : Mat 4096 4096) : EReal :=
  Ideal.div (∑ r : Fin 4096, rowLoss x0 x1 (unitRows t) lab r) countW

/-! ## A block of rows -/

/-- A row's clamped length is that of the same row in any matrix that holds it: if row `r` of `y` is row `ρ r` of `x`,
    their lengths agree. -/
theorem rowLen_of_rows {a a' b : ℕ} (x : Mat a b) (y : Mat a' b) (r : Fin a') (q : Fin a)
    (h : ∀ k : Fin b, y (ix2 r k) = x (ix2 q k)) : rowLen y r = rowLen x q := by
  unfold rowLen
  simp only [h]

theorem unitEntry_of_rows {a a' b : ℕ} (x : Mat a b) (y : Mat a' b) (r : Fin a') (q : Fin a)
    (h : ∀ k : Fin b, y (ix2 r k) = x (ix2 q k)) (k : Fin b) : unitEntry y r k = unitEntry x q k := by
  unfold unitEntry
  rw [h k, rowLen_of_rows x y r q h]

/-- The loss of a pair read through a block of feature rows and the matching block of label rows. -/
theorem lossRaw_of_rows {a a' b n : ℕ} (x0 x1 : Mat a b) (lab : Mat a n) (y0 y1 : Mat a' b) (lb : Mat a' n) (w : Mat n b)
    (r : Fin a') (q : Fin a) (h0 : ∀ k : Fin b, y0 (ix2 r k) = x0 (ix2 q k)) (h1 : ∀ k : Fin b, y1 (ix2 r k) = x1 (ix2 q k))
    (hl : ∀ c : Fin n, lb (ix2 r c) = lab (ix2 q c)) (c : Fin n) :
    lossRaw y0 y1 w lb r c = lossRaw x0 x1 w lab q c := by
  have e0 : ∀ k, unitEntry y0 r k = unitEntry x0 q k := unitEntry_of_rows x0 y0 r q h0
  have e1 : ∀ k, unitEntry y1 r k = unitEntry x1 q k := unitEntry_of_rows x1 y1 r q h1
  unfold lossRaw
  simp only [hl c, e0, e1]

theorem rowLoss_of_rows {a a' b n : ℕ} (x0 x1 : Mat a b) (lab : Mat a n) (y0 y1 : Mat a' b) (lb : Mat a' n) (w : Mat n b)
    (r : Fin a') (q : Fin a) (h0 : ∀ k : Fin b, y0 (ix2 r k) = x0 (ix2 q k)) (h1 : ∀ k : Fin b, y1 (ix2 r k) = x1 (ix2 q k))
    (hl : ∀ c : Fin n, lb (ix2 r c) = lab (ix2 q c)) :
    rowLoss y0 y1 w lb r = rowLoss x0 x1 w lab q :=
  Finset.sum_congr rfl fun c _ => lossRaw_of_rows x0 x1 lab y0 y1 lb w r q h0 h1 hl c

end Contrastive

end
-- ==== Proof.LibColumnForms.lean ====
/-
  A column vector read at an index.

  Summing a matrix along its rows with the summed axis kept gives a column: the sums, an `[a]` vector, are laid out as
  `[a, 1]`, and the column is then copied along a new second axis to `[a, b]`. Entry `(i, j)` of the result is
  entry `i` of the vector, whatever `j`. The two lemmas below say this one layout step at a time, every index
  written by its coordinates.
-/
import Idealize.ShloMosaic.Lib.Pipeline.Value
import Idealize.ShloMosaic.Lib.ValueIdx

namespace Cert.ColumnForms

open Idealize.ShloMosaic Idealize.ShloMosaic.ValueIdx

variable {α : Type}

/-- A vector `[a]` laid out as a column `[a, 1]` reads, at `(i, u)`, the vector at `i`: the row-major position
    `i · 1 + u` of `(i, u)` is `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` copied along its unit axis to `[a, b]` reads, at `(i, j)`, the column at `(i, 0)`: the first
    coordinate is kept (also when `a = 1`, where it is `0` anyway), the second is the unit axis's only one. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.ColumnForms
-- ==== Proof.LibRowForms.lean ====
/-
  Row reductions of a matrix, and a column laid along the rows, read at an index.

  Reducing a matrix `[a, b]` along its second axis gives a vector `[a]` whose entry `i` depends on row `i` alone: for a
  sum it is the sum of the row's `b` entries, for a maximum the fold of `max` over them from the initial value. And a
  column `[b, 1]`, transposed to the row `[1, b]` and copied down to `[a, b]`, has at `(i, j)` entry `j` of the column,
  whatever `i`. Every index is written by its coordinates.
-/
import Idealize.ShloMosaic.PureOps.Ideal.Laws
import Idealize.ShloMosaic.Lib.ValueIdx
import Idealize.ShloMosaic.Lib.ValueLayout

namespace Cert.RowForms

open Idealize.ShloMosaic Idealize.ShloMosaic.ValueIdx

/-- The index of the matrix that reduces to `i` along the second axis and has `k` there is `(i, k)`. -/
theorem lift_row {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext d; apply Fin.ext
  match d with
  | ⟨0, _⟩ => rfl
  | ⟨1, _⟩ => rfl

/-- A float sum along the rows, from the zero word, at `i`: the sum of row `i`. -/
theorem multiReduction_add_rows {a b : ℕ} (src : FVec Ideal ⟨2, ![a, b]⟩ .f32)
    (h : (⟨2, ![a, b]⟩ : Shape).Reduces [1] ⟨1, ![a]⟩) (i : Fin a) :
    multiReduction .add [1] ⟨1, ![a]⟩ src 0x00000000#32 h (.inl rfl) rfl (ix1 i) = ∑ k : Fin b, src (ix2 i k) :=
  (Ideal.multiReduction_add_single src 0x00000000#32 h (.inl rfl) rfl (ix1 i)).trans
    (Finset.sum_congr rfl fun k _ => congrArg src (lift_row h i k))

/-- A float maximum along the rows, from the word of minus infinity, at `i`: the fold of `max` over row `i`. -/
theorem multiReduction_max_rows {a b : ℕ} (src : FVec Ideal ⟨2, ![a, b]⟩ .f32)
    (h : (⟨2, ![a, b]⟩ : Shape).Reduces [1] ⟨1, ![a]⟩) (i : Fin a) :
    multiReduction .maximumf [1] ⟨1, ![a]⟩ src 0xFF800000#32 h (.inl rfl) rfl (ix1 i)
      = (Finset.univ : Finset (Fin b)).fold max (Ideal.ofBits .f32 0xFF800000#32) (fun k => src (ix2 i k)) :=
  (Ideal.multiReduction_maximumf_single src 0xFF800000#32 h (.inl rfl) rfl (ix1 i)).trans
    (congrArg (fun f => Finset.fold max (Ideal.ofBits .f32 0xFF800000#32) f (Finset.univ : Finset (Fin b)))
      (funext fun k => congrArg src (lift_row h i k)))

/-- A column `[b, 1]` transposed to a row `[1, b]` and copied down to `[a, b]` reads, at `(i, j)`, the column at `(j, 0)`. -/
theorem rowOfColumn_apply {α : Type} {a b : ℕ} (col : (⟨2, ![b, 1]⟩ : Shape).Idx → α)
    (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] col ht) hb (ix2 i j) = col (ix2 j (0 : Fin 1)) :=
  (broadcastTo_1b_ab_apply _ hb i j).trans (transpose_ix2_apply col ht (0 : Fin 1) j)

end Cert.RowForms
-- ==== Proof.ScaledRows.lean ====
/-
  Scaling the rows of a block to unit length, as the vector operations compute it, read at an entry.

  The block is squared entry by entry, each row's squares are summed, the sums are laid out as a column, the square
  root is taken and clamped from below, the column is copied along the rows, and the block is divided by it entry
  by entry.  At entry `(r, k)` this is the entry divided by the clamped length of row `r`: the row sum at `r` is
  the sum of the row's squares, and the column and its copies carry that one number to every entry of the row.
-/
import proofs.«127228_j23708219474588_1_alg».proof.Proof.LossSpec
import proofs.«127228_j23708219474588_1_alg».proof.Proof.LibColumnForms
import proofs.«127228_j23708219474588_1_alg».proof.Proof.LibRowForms

noncomputable section

namespace Contrastive

open Idealize.ShloMosaic Idealize.ShloMosaic.ValueIdx

/-- The block with every row divided by its clamped length, by the vector operations. -/
def scaledBlock {a b : ℕ} (x : FVec Ideal ⟨2, ![a, b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) : FVec Ideal ⟨2, ![a, b]⟩ .f32 :=
  divf x (broadcastTo ⟨2, ![a, b]⟩
    (maximumf (sqrt (shapeCast ⟨2, ![a, 1]⟩ (multiReduction .add [1] ⟨1, ![a]⟩ (mulf x x) 0x00000000#32 hr (.inl rfl) rfl) hc))
      (broadcast ⟨2, ![a, 1]⟩ (Scalar.ofBits (F := Ideal) .f32 0x322BCC77#32))) hb)

/-- Entry `(r, k)` of the scaled block is the entry over the clamped length of row `r`. -/
theorem scaledBlock_apply {a b : ℕ} (x : FVec Ideal ⟨2, ![a, b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (r : Fin a) (k : Fin b) :
    scaledBlock x hr hc hb (ix2 r k) = unitEntry x r k := by
  unfold scaledBlock unitEntry rowLen epsW
  show Ideal.div (x (ix2 r k)) (broadcastTo ⟨2, ![a, b]⟩ _ hb (ix2 r k)) = _
  refine congrArg (Ideal.div (x (ix2 r k))) ?_
  refine (Cert.ColumnForms.broadcastTo_a1_ab_apply _ hb r k).trans ?_
  show max (Ideal.sqrt (shapeCast ⟨2, ![a, 1]⟩ _ hc (ix2 r (0 : Fin 1)))) (Ideal.ofBits .f32 0x322BCC77#32) = _
  refine congrArg (fun z => max (Ideal.sqrt z) (Ideal.ofBits .f32 0x322BCC77#32)) ?_
  refine (Cert.ColumnForms.shapeCast_a_a1_apply _ hc r 0).trans ?_
  exact Cert.RowForms.multiReduction_add_rows _ hr r

end Contrastive

end
-- ==== Proof.TextValue.lean ====
/-
  What the first kernel region leaves in its output array: the text table with every row scaled to unit length.

  The region visits the table in eight blocks of 512 rows.  At point `t` it loads rows `512·t … 512·t + 511`, scales
  each row of the block to unit length, and writes the block back to the same rows of the output.  A row's scaled
  entries depend on that row alone, so entry `(q, k)` of the output is entry `(q, k)` of the whole table's scaled
  rows, `q = 512·t + r`; and every row lies in exactly the block `q / 512`, so the blocks cover the array.
-/
import proofs.«127228_j23708219474588_1_alg».proof.Proof.Gen.KernelIdeal.Frame
import proofs.«127228_j23708219474588_1_alg».proof.Proof.ScaledRows
import Idealize.ShloMosaic.Lib.Pipeline.Value

set_option maxRecDepth 16384

noncomputable section

namespace Cert.KernelIdeal.TextValue

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The stored value of the body at entry `(r, k)` of the block: the entry over the clamped length of row `r`. -/
theorem payload_apply (x : Vec Ideal S512x1024 .f32) (r : Fin 512) (k : Fin 1024) :
    k0_pay1 (F := Ideal) x (ix2 r k) = Contrastive.unitEntry x r k := by
  unfold k0_pay1
  exact Contrastive.scaledBlock_apply x reduces_S512x1024_S512 shapeCasts_S512_S512x1 broadcasts_S512x1_S512x1024 r k

/-- The table's scaled rows, as contents of the output array. -/
def scaledText (X : S4096x1024.Idx → Ideal .f32) : S4096x1024.Idx → Ideal .bf16 := Contrastive.unitRows X

/-- A block's stored value at an entry is the whole table's scaled entry, when the block's row is a row of the table. -/
theorem payload_of_rows (x : Vec Ideal S512x1024 .f32) (X : S4096x1024.Idx → Ideal .f32) (j : S512x1024.Idx) (i : S4096x1024.Idx)
    (r : Fin 512) (kk : Fin 1024) (q : Fin 4096) (hj : j = ix2 r kk) (hi : i = ix2 q kk)
    (hrow : ∀ k : Fin 1024, x (ix2 r k) = X (ix2 q k)) : k0_pay1 (F := Ideal) x j = scaledText X i := by
  subst hj hi
  refine (payload_apply x r kk).trans ?_
  exact Contrastive.unitEntry_of_rows X x r q hrow kk

/-- Both windows move with the grid point along the rows and stay at the first column block. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Row `r` of the block at point `t`, as a row of the table. -/
def rowOf (t : Fin cfg0.N) (r : Fin 512) : Fin 4096 :=
  ⟨512 * t.val + r.val, by have := lt_of_lt_of_eq t.isLt (show cfg0.N = 8 from N_0); have := r.isLt; omega⟩

/-- What point `t` writes back is block `t` of the table's scaled rows. -/
theorem flushed_eq (c : Dev nD) (t : Fin cfg0.N) :
    (dat0 V c).flushed 1 t = ((cfg0.win 1).blk t).view.read (Elt Ideal) (scaledText (V c main_arg2)) := by
  show (cfg0.win 1).cut (grid0.coords t) ((dat0 V c).after 1 t) = _
  rw [after0_1]
  unfold out0_1
  rw [View.canon_unit_zero hz]
  simp only [View.ld_unit_zero (S := S512x1024) hz]
  obtain ⟨e0, e1, e2, e3⟩ := idx_facts t
  funext j
  show k0_pay1 (iblk0 V c 0 t) j = scaledText (V c main_arg2) (((cfg0.win 1).blk t).view.emb j)
  refine payload_of_rows (iblk0 V c 0 t) (V c main_arg2) j _ (j 0) (j 1) (rowOf t (j 0)) (eq_ix2 j) ?_ ?_
  · funext a; apply Fin.ext
    match a with
    | ⟨0, _⟩ => show win0_1.index t (0 : Fin 2) * 512 + 1 * (j 0).val = 512 * t.val + (j 0).val; rw [e2]; omega
    | ⟨1, _⟩ => show win0_1.index t (1 : Fin 2) * 1024 + 1 * (j 1).val = (j 1).val; rw [e3]; omega
  · intro k
    show V c main_arg2 (((cfg0.win 0).blk t).view.emb (ix2 (j 0) k)) = _
    refine congrArg (V c main_arg2) ?_
    funext a; apply Fin.ext
    match a with
    | ⟨0, _⟩ => show win0_0.index t (0 : Fin 2) * 512 + 1 * (j 0).val = 512 * t.val + (j 0).val; rw [e0]; omega
    | ⟨1, _⟩ => show win0_0.index t (1 : Fin 2) * 1024 + 1 * k.val = k.val; rw [e1]; omega

/-- An index of the array is in point `t`'s block iff each coordinate is in the block's range on its axis. -/
theorem mem_blk (t : Fin cfg0.N) (i : S4096x1024.Idx) :
    i ∈ ((cfg0.win 1).blk t).view.set ↔ ∀ a : Fin 2, win0_1.index t a * S512x1024.size a ≤ (i a).val ∧ (i a).val < win0_1.index t a * S512x1024.size a + S512x1024.size a := by
  show i ∈ ((View.whole main_v0).slice (win0_1.rect t)).set ↔ _
  rw [View.set_slice_whole, Rect.mem_set_unit]
  exact Iff.rfl

/-- The output array after the region: the table's scaled rows. -/
theorem final_text (c : Dev nD) : (dat0 V c).arrAt 1 cfg0.N = scaledText (V c main_arg2) :=
  (dat0 V c).arrAt_eq_of_cover 1 (scaledText (V c main_arg2)) (fun t _ => flushed_eq V c t) fun i => by
    have hi0 : (i 0).val < 4096 := (i 0).isLt
    have hi1 : (i 1).val < 1024 := (i 1).isLt
    have hN : cfg0.N = 8 := N_0
    refine ⟨⟨(i 0).val / 512, by rw [hN]; omega⟩, flush0_1 _, ?_⟩
    rw [mem_blk]
    obtain ⟨-, -, e2, e3⟩ := idx_facts ⟨(i 0).val / 512, by rw [hN]; omega⟩
    intro a
    match a with
    | ⟨0, _⟩ =>
      show win0_1.index _ (0 : Fin 2) * 512 ≤ (i 0).val ∧ (i 0).val < win0_1.index _ (0 : Fin 2) * 512 + 512
      rw [e2]; dsimp only; omega
    | ⟨1, _⟩ =>
      show win0_1.index _ (1 : Fin 2) * 1024 ≤ (i 1).val ∧ (i 1).val < win0_1.index _ (1 : Fin 2) * 1024 + 1024
      rw [e3]; omega

end Cert.KernelIdeal.TextValue

end
-- ==== Proof.RowProducts.lean ====
/-
  A matrix product that contracts the second axis of both operands, read at an entry.

  Entry `(r, c)` of the product of a `128 × 1024` block and a `4096 × 1024` table, both contracted along their
  second axis into a zero accumulator, is the inner product of row `r` of the block and row `c` of the table: the
  contraction index is the one coordinate `k`, the left operand is read at `(r, k)` and the right one at `(c, k)`.
-/
import proofs.«127228_j23708219474588_1_alg».proof.Proof.Gen.KernelIdeal.Skeleton
import proofs.«127228_j23708219474588_1_alg».proof.Proof.ScaledRows
import Idealize.ShloMosaic.Lib.Pipeline.Value

set_option maxRecDepth 16384

noncomputable section

namespace Cert.KernelIdeal.BlockLoss

open Cert.KernelIdeal Cert.KernelIdeal.Gen
open Idealize.ShloMosaic Idealize.ShloMosaic.TcCoe Idealize.SL.Sem Idealize.ShloMosaic.ValueIdx

/-- The product's dimensions: both operands contracted along their second axis. -/
abbrev D := dot_S128x1024_S4096x1024_S128x4096_1_1_0_0_n_n

theorem lhs_0 (i : S128x4096.Idx) (q : D.contr.Idx) : (D.lhsIdx i q 0).val = (i 0).val := by
  unfold DotDims.lhsIdx
  rw [dif_neg (show ¬(0 : Fin S128x1024.rank) ∈ D.lhsBatch by decide), dif_pos (show (0 : Fin S128x1024.rank) ∈ D.lhsNonContracting by decide)]
  rfl
theorem lhs_1 (i : S128x4096.Idx) (q : D.contr.Idx) : (D.lhsIdx i q 1).val = (q ⟨0, by decide⟩).val :=
  D.lhsIdx_val_of_single rfl i q
theorem rhs_0 (i : S128x4096.Idx) (q : D.contr.Idx) : (D.rhsIdx i q 0).val = (i 1).val := by
  unfold DotDims.rhsIdx
  rw [dif_neg (show ¬(0 : Fin S4096x1024.rank) ∈ D.rhsBatch by decide), dif_pos (show (0 : Fin S4096x1024.rank) ∈ D.rhsNonContracting by decide)]
  rfl
theorem rhs_1 (i : S128x4096.Idx) (q : D.contr.Idx) : (D.rhsIdx i q 1).val = (q ⟨0, by decide⟩).val :=
  D.rhsIdx_val_of_single rfl i q

/-- The matrix product into a zero accumulator at entry `(r, c)`: the inner product of row `r` of the left operand
    and row `c` of the right one. -/
theorem matmul_rows (L : FVec Ideal S128x1024 .bf16) (R : FVec Ideal S4096x1024 .bf16) (r : Fin 128) (c : Fin 4096) :
    matmul D none L R (constant (F := Ideal) S128x4096 .f32 0x00000000#32) (ix2 r c)
      = ∑ k : Fin 1024, L (ix2 r k) * R (ix2 c k) := by
  simp only [matmul]
  rw [Ideal.matmul_constant_zero_apply, ← Equiv.sum_comp (contrEquiv1 D 1024 rfl rfl).symm]
  refine Finset.sum_congr rfl fun k _ => ?_
  have hk := contrEquiv1_symm_val D 1024 rfl rfl k
  have el : D.lhsIdx (ix2 r c) ((contrEquiv1 D 1024 rfl rfl).symm k) = ix2 r k := funext fun a => Fin.ext (by
    match a with
    | ⟨0, _⟩ => exact lhs_0 _ _
    | ⟨1, _⟩ => exact (lhs_1 _ _).trans hk)
  have er : D.rhsIdx (ix2 r c) ((contrEquiv1 D 1024 rfl rfl).symm k) = ix2 c k := funext fun a => Fin.ext (by
    match a with
    | ⟨0, _⟩ => exact rhs_0 _ _
    | ⟨1, _⟩ => exact (rhs_1 _ _).trans hk)
  rw [el, er]

end Cert.KernelIdeal.BlockLoss

end
-- ==== Proof.LibUnitLeadSum.lean ====
/-
  A sum over every index of an array with a leading unit axis, taken entry by entry.

  An array of shape `[1, a, b]` has exactly the indices `(0, r, c)` with `r < a` and `c < b`: the first coordinate can
  only be `0`.  So a sum over all its indices, in any commutative monoid, is the double sum over `r` and `c` of the
  entries at `(0, r, c)`.
-/
import Idealize.ShloMosaic.Lib.ValueIdx

namespace Cert.UnitLeadSum

open Idealize.ShloMosaic Idealize.ShloMosaic.ValueIdx

/-- The indices of `[1, a, b]` are the pairs `(r, c)`. -/
def idxEquiv1ab {a b : ℕ} : (⟨3, ![1, a, b]⟩ : Shape).Idx ≃ Fin a × Fin b where
  toFun i := (i 1, i 2)
  invFun p := ix3 (0 : Fin 1) p.1 p.2
  left_inv i := by
    funext d
    match d with
    | ⟨0, _⟩ => exact Fin.ext (by have h : (i 0).val < 1 := (i 0).isLt; show 0 = (i 0).val; omega)
    | ⟨1, _⟩ => rfl
    | ⟨2, _⟩ => rfl
  right_inv _ := rfl

/-- A sum over the indices of `[1, a, b]` is the double sum over the last two coordinates. -/
theorem sum_idx1ab {M : Type*} [AddCommMonoid M] {a b : ℕ} (f : (⟨3, ![1, a, b]⟩ : Shape).Idx → M) :
    ∑ i, f i = ∑ r : Fin a, ∑ c : Fin b, f (ix3 (0 : Fin 1) r c) := by
  rw [← Equiv.sum_comp (idxEquiv1ab (a := a) (b := b)).symm f, Fintype.sum_prod_type]
  rfl

end Cert.UnitLeadSum
-- ==== Proof.BlockLoss.lean ====
/-
  The second kernel region's body at one grid point, as a value: the running total plus the block's loss.

  The body holds a block of 128 rows of each feature table, the whole text table (its rows already of unit length)
  and the matching 128 rows of the labels.  It scales the feature rows to unit length, takes the two matrix products
  with the text table — entry `(r, c)` is the inner product of scaled feature row `r` and text row `c` —, forms the two
  pair losses entry by entry, adds them, sums the `128 × 4096` entries into one number, and adds that number to the
  running total it finds in its `1 × 1` output block.  So the stored value is the total found plus the sum over the
  block's rows of the row losses.
-/
import proofs.«127228_j23708219474588_1_alg».proof.Proof.RowProducts
import proofs.«127228_j23708219474588_1_alg».proof.Proof.LibUnitLeadSum
import Idealize.ShloMosaic.Lib.ValueLayout

set_option maxRecDepth 16384

noncomputable section

namespace Cert.KernelIdeal.BlockLoss

open Cert.KernelIdeal Cert.KernelIdeal.Gen
open Idealize.ShloMosaic Idealize.ShloMosaic.TcCoe Idealize.SL.Sem Idealize.ShloMosaic.ValueIdx

/-- The cosines of the first feature block against the text rows: entry `(r, c)` is the inner product of the scaled
    feature row `r` with text row `c`. -/
theorem cos0_apply (x0 : Vec Ideal S128x1024 .f32) (x2 : Vec Ideal S4096x1024 .bf16) (r : Fin 128) (c : Fin 4096) :
    k1_pay4 (F := Ideal) x0 x2 (ix2 r c) = ∑ k : Fin 1024, Contrastive.unitEntry x0 r k * x2 (ix2 c k) := by
  unfold k1_pay4 k1_pay3
  refine (matmul_rows _ _ r c).trans ?_
  refine Finset.sum_congr rfl fun k _ => ?_
  exact congrArg₂ (· * ·)
    (Contrastive.scaledBlock_apply x0 reduces_S128x1024_S128 shapeCasts_S128_S128x1 broadcasts_S128x1_S128x1024 r k)
    (congrFun (shapeCast_self x2 shapeCasts_S4096x1024_S4096x1024) (ix2 c k))

/-- The same for the second feature block. -/
theorem cos1_apply (x1 : Vec Ideal S128x1024 .f32) (x2 : Vec Ideal S4096x1024 .bf16) (r : Fin 128) (c : Fin 4096) :
    k1_pay5 (F := Ideal) x1 x2 (ix2 r c) = ∑ k : Fin 1024, Contrastive.unitEntry x1 r k * x2 (ix2 c k) := by
  unfold k1_pay5 k1_pay3
  refine (matmul_rows _ _ r c).trans ?_
  refine Finset.sum_congr rfl fun k _ => ?_
  exact congrArg₂ (· * ·)
    (Contrastive.scaledBlock_apply x1 reduces_S128x1024_S128 shapeCasts_S128_S128x1 broadcasts_S128x1_S128x1024 r k)
    (congrFun (shapeCast_self x2 shapeCasts_S4096x1024_S4096x1024) (ix2 c k))

/-- The block of entrywise losses the body sums: the first table's two products of the pair loss, handed over
    already formed (`p`, `q`), plus the second table's pair loss formed from its cosines `s` and the labels `l`. -/
def blockEntries (s : FVec Ideal S128x4096 .f32) (l : Vec Ideal S128x4096 .f32) (p q : FVec Ideal S128x4096 .f32) :
    FVec Ideal S128x4096 .f32 :=
  addf (addf p q)
    (addf (mulf l (subf (broadcast S128x4096 (Scalar.ofBits (F := Ideal) .f32 0x3F800000#32)) s))
      (mulf (subf (broadcast S128x4096 (Scalar.ofBits (F := Ideal) .f32 0x3F800000#32)) l)
        (maximumf (subf s (broadcast S128x4096 (Scalar.ofBits (F := Ideal) .f32 0x3F800000#32)))
          (broadcast S128x4096 (Scalar.ofBits (F := Ideal) .f32 0x00000000#32)))))

/-- A one-entry vector has one index. -/
theorem idx1_eq (x y : S1.Idx) : x = y := by
  rw [eq_ix1 x, eq_ix1 y]
  exact congrArg ix1 (Subsingleton.elim (α := Fin 1) _ _)

/-- The last steps of the body: the one-entry sum is laid out as `1 × 1 × 1`, its entry taken out, copied to a
    `1 × 1` block and added to what the output block held. -/
theorem tail_apply (acc : Vec Ideal S1x1 .f32) (t1 : FVec Ideal S1 .f32) (u w : Fin 1) :
    addf (shapeCast S1x1 acc shapeCasts_S1x1_S1x1)
        (broadcast S1x1 (extractAt ![0, 0, 0] (shapeCast S1x1x1 t1 shapeCasts_S1_S1x1x1) inpos_S1x1x1_p0_0_0)) (ix2 u w)
      = acc (ix2 u w) + t1 (ix1 (0 : Fin 1)) := by
  show shapeCast S1x1 acc shapeCasts_S1x1_S1x1 (ix2 u w) + t1 (Shape.reshapeEquiv shapeCasts_S1_S1x1x1 _) = _
  exact congrArg₂ (· + ·) (congrFun (shapeCast_self acc shapeCasts_S1x1_S1x1) (ix2 u w)) (congrArg t1 (idx1_eq _ _))

/-- The sum of a `1 × 128 × 4096` array along its last two axes, at its one index: the double sum of the entries. -/
theorem sum_apply (src : FVec Ideal S1x128x4096 .f32) :
    multiReduction .add [1, 2] S1 src 0x00000000#32 reduces_S1x128x4096_S1 (.inl rfl) rfl (ix1 (0 : Fin 1))
      = ∑ r : Fin 128, ∑ c : Fin 4096, src (ix3 (0 : Fin 1) r c) :=
  (Ideal.multiReduction_add_total src 0x00000000#32 reduces_S1x128x4096_S1
    (fun b => by match b with | ⟨0, _⟩ => rfl) (.inl rfl) rfl (ix1 (0 : Fin 1))).trans (Cert.UnitLeadSum.sum_idx1ab src)

/-- The stored `1 × 1` value at its one entry: what the output block held plus the sum of all the block's entrywise
    losses, taken row by row. -/
theorem total_apply (s : FVec Ideal S128x4096 .f32) (l : Vec Ideal S128x4096 .f32) (p q : FVec Ideal S128x4096 .f32)
    (acc : Vec Ideal S1x1 .f32) (u w : Fin 1) :
    k1_pay1 (F := Ideal) s l p q acc (ix2 u w)
      = acc (ix2 u w) + ∑ r : Fin 128, ∑ c : Fin 4096, blockEntries s l p q (ix2 r c) := by
  unfold k1_pay1
  refine (tail_apply acc _ u w).trans ?_
  refine congrArg (acc (ix2 u w) + ·) ?_
  refine (sum_apply _).trans ?_
  refine Finset.sum_congr rfl fun r _ => Finset.sum_congr rfl fun c _ => ?_
  exact shapeCast_ab_1ab_apply (blockEntries s l p q) shapeCasts_S128x4096_S1x128x4096 0 r c

/-- With the body's own cosines and products in place, an entry of the block of losses is the loss of the pair. -/
theorem entry_apply (x0 x1 : Vec Ideal S128x1024 .f32) (x2 : Vec Ideal S4096x1024 .bf16) (x3 : Vec Ideal S128x4096 .f32)
    (r : Fin 128) (c : Fin 4096) :
    blockEntries (k1_pay5 (F := Ideal) x1 x2) x3 (k1_pay6 x0 x2 x3) (k1_pay7 x0 x2 x3) (ix2 r c)
      = Contrastive.lossRaw x0 x1 x2 x3 r c := by
  unfold blockEntries k1_pay6 k1_pay7 Contrastive.lossRaw Contrastive.pairLoss Contrastive.oneW Contrastive.zeroW
  show (x3 (ix2 r c) * (Ideal.ofBits .f32 0x3F800000#32 - k1_pay4 (F := Ideal) x0 x2 (ix2 r c))
        + (Ideal.ofBits .f32 0x3F800000#32 - x3 (ix2 r c)) * max (k1_pay4 (F := Ideal) x0 x2 (ix2 r c) - Ideal.ofBits .f32 0x3F800000#32) (Ideal.ofBits .f32 0x00000000#32))
      + (x3 (ix2 r c) * (Ideal.ofBits .f32 0x3F800000#32 - k1_pay5 (F := Ideal) x1 x2 (ix2 r c))
        + (Ideal.ofBits .f32 0x3F800000#32 - x3 (ix2 r c)) * max (k1_pay5 (F := Ideal) x1 x2 (ix2 r c) - Ideal.ofBits .f32 0x3F800000#32) (Ideal.ofBits .f32 0x00000000#32)) = _
  rw [cos0_apply, cos1_apply]

/-- THE POINT'S VALUE: the body's stored number is the total it found plus the block's rows' losses. -/
theorem point_value (x0 x1 : Vec Ideal S128x1024 .f32) (x2 : Vec Ideal S4096x1024 .bf16) (x3 : Vec Ideal S128x4096 .f32)
    (acc : Vec Ideal S1x1 .f32) (u w : Fin 1) :
    k1_pay1 (F := Ideal) (k1_pay5 x1 x2) x3 (k1_pay6 x0 x2 x3) (k1_pay7 x0 x2 x3) acc (ix2 u w)
      = acc (ix2 u w) + ∑ r : Fin 128, Contrastive.rowLoss x0 x1 x2 x3 r := by
  refine (total_apply _ _ _ _ acc u w).trans ?_
  refine congrArg (acc (ix2 u w) + ·) ?_
  refine Finset.sum_congr rfl fun r _ => ?_
  exact Finset.sum_congr rfl fun c _ => entry_apply x0 x1 x2 x3 r c

end Cert.KernelIdeal.BlockLoss

end
-- ==== Proof.Accum.lean ====
/-
  The second kernel region's output: the running total after every grid point, and what it ends at.

  The region visits the feature tables and the labels in 32 blocks of 128 rows; the text table (rows of unit length,
  as the first region left it) is present whole at every point; the `1 × 1` output block keeps its place, so it is
  carried from point to point and written back once, after the last one.  At point 0 the body stores zero there and
  then adds the first block's loss; at every later point it adds that point's block's loss to what the block held.
  A block's loss is the sum, over its 128 rows, of the rows' losses, and a row's loss depends on that row of the
  feature tables and of the labels alone.  So after point `n` the block holds the sum of the row losses over the
  blocks `0 … n`, and after the last point the sum over all 4096 rows.
-/
import proofs.«127228_j23708219474588_1_alg».proof.Proof.Gen.KernelIdeal.Frame
import proofs.«127228_j23708219474588_1_alg».proof.Proof.BlockLoss
import Idealize.ShloMosaic.Lib.Pipeline.Value
import Idealize.ShloMosaic.Lib.Tactic

set_option maxRecDepth 16384

noncomputable section

namespace Contrastive

open Idealize.ShloMosaic Idealize.ShloMosaic.ValueIdx

/-- A row's loss reads the text table entry by entry: two tables with the same entries give the same loss. -/
theorem rowLoss_congr_text {a b n : ℕ} (x0 x1 : Mat a b) (w w' : Mat n b) (lab : Mat a n) (r : Fin a)
    (hw : ∀ (c : Fin n) (k : Fin b), w' (ix2 c k) = w (ix2 c k)) : rowLoss x0 x1 w' lab r = rowLoss x0 x1 w lab r := by
  unfold rowLoss lossRaw
  simp only [hw]

end Contrastive

namespace Cert.KernelIdeal.Accum

open Cert.KernelIdeal Cert.KernelIdeal.Gen
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

section AnyValues

variable {F : FTy → Type} [FloatOps F]

/-- At a later point the body leaves, in the output block holding `xo`, its one store's value: the payload of the
    four input blocks and `xo`. -/
theorem out_B (c : Dev nD) (i : grid1.Coords) (a1 : Memref sig .tc .vmem S128x1024 .f32) (h1 : a1.IsWhole)
    (a2 : Memref sig .tc .vmem S128x1024 .f32) (h2 : a2.IsWhole) (a3 : Memref sig .tc .vmem S4096x1024 .bf16) (h3 : a3.IsWhole)
    (a4 : Memref sig .tc .vmem S128x4096 .f32) (h4 : a4.IsWhole) (a5 : Memref sig .tc .vmem S1x1 .f32) (h5 : a5.IsWhole)
    (hc : ¬cond1_0 i) (x0 x1 : Vec F S128x1024 .f32) (x2 : Vec F S4096x1024 .bf16) (x3 : Vec F S128x4096 .f32) (xo : Vec F S1x1 .f32) :
    out1_B_4 c i a1 h1 a2 h2 a3 h3 a4 h4 a5 h5 hc x0 x1 x2 x3 xo
      = k1_pay1 (k1_pay5 x1 x2) x3 (k1_pay6 x0 x2 x3) (k1_pay7 x0 x2 x3) xo := by
  unfold out1_B_4
  rw [View.read_writes_eq_canon _ _ _ (cover1_B_4 c i a1 h1 a2 h2 a3 h3 a4 h4 a5 h5 hc x0 x1 x2 x3 xo)]
  unfold kernelRun1_B
  dsimp only
  sl_unfold_words
  rw [View.canon_unit_zero hz]
  simp only [View.readAt_eq_ld, h1.read_unread, h2.read_unread, h3.read_unread, h4.read_unread, h5.read_unread,
    View.ld_unit_zero (S := S128x1024) hz, View.ld_unit_zero (S := S4096x1024) hz, View.ld_unit_zero (S := S128x4096) hz,
    View.ld_unit_zero (S := S1x1) hz]

/-- At the first point the body first stores the zero block, reads it back, and leaves the payload of the four input
    blocks and that zero block. -/
theorem out_A (c : Dev nD) (i : grid1.Coords) (a1 : Memref sig .tc .vmem S128x1024 .f32) (h1 : a1.IsWhole)
    (a2 : Memref sig .tc .vmem S128x1024 .f32) (h2 : a2.IsWhole) (a3 : Memref sig .tc .vmem S4096x1024 .bf16) (h3 : a3.IsWhole)
    (a4 : Memref sig .tc .vmem S128x4096 .f32) (h4 : a4.IsWhole) (a5 : Memref sig .tc .vmem S1x1 .f32) (h5 : a5.IsWhole)
    (hc : cond1_0 i) (x0 x1 : Vec F S128x1024 .f32) (x2 : Vec F S4096x1024 .bf16) (x3 : Vec F S128x4096 .f32) :
    out1_A_4 c i a1 h1 a2 h2 a3 h3 a4 h4 a5 h5 hc x0 x1 x2 x3
      = k1_pay1 (k1_pay5 x1 x2) x3 (k1_pay6 x0 x2 x3) (k1_pay7 x0 x2 x3) (k1_pay2 (F := F)) := by
  unfold out1_A_4
  rw [View.read_writes_eq_canon _ _ _ (cover1_A_4 c i a1 h1 a2 h2 a3 h3 a4 h4 a5 h5 hc x0 x1 x2 x3)]
  unfold kernelRun1_A
  dsimp only
  sl_unfold_words
  rw [View.canon_cons_unit_zero (S := S1x1) hz, View.readCov_unit_zero (S := S1x1) _ hz]
  simp only [View.readAt_eq_ld, h1.read_unread, h2.read_unread, h3.read_unread, h4.read_unread,
    View.ld_unit_zero (S := S128x1024) hz, View.ld_unit_zero (S := S4096x1024) hz, View.ld_unit_zero (S := S128x4096) hz]

end AnyValues

variable (V : (c : Dev nD) → (b : Ref sig .tc) → Buf (Elt Ideal) ((c : Thread nD τ).loc b))

/-- The feature and label windows move with the grid point along the rows; the text window and the output stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0 :=
  (by decide +kernel : ∀ t : Fin grid1.N, _)

theorem h4096 : 0 < 4096 := by norm_num

/-- Row `r` of block `t`, as a row of the tables: `128 · t + r`. -/
def rowOf (t : ℕ) (r : Fin 128) : Fin 4096 := BlockedSum.blkIdx h4096 128 t r

theorem rowOf_val (t : Fin cfg1.N) (r : Fin 128) : (rowOf t.val r).val = 128 * t.val + r.val :=
  BlockedSum.blkIdx_val h4096 (by norm_num : 32 * 128 = 4096) (lt_of_lt_of_eq t.isLt (show cfg1.N = 32 from N_1)) r

/-- The first feature table's block at point `t` holds the table's rows `128·t + r`. -/
theorem blk0_rows (c : Dev nD) (t : Fin cfg1.N) (r : Fin 128) (k : Fin 1024) :
    iblk1 V c 0 t (ix2 r k) = V c main_arg0 (ix2 (rowOf t.val r) k) := by
  obtain ⟨e0, e1, -⟩ := idx_facts t
  show V c main_arg0 (((cfg1.win 0).blk t).view.emb (ix2 r k)) = _
  refine congrArg (V c main_arg0) ?_
  funext a; apply Fin.ext
  match a with
  | ⟨0, _⟩ => show win1_0.index t (0 : Fin 2) * 128 + 1 * r.val = (rowOf t.val r).val; rw [e0, rowOf_val]; omega
  | ⟨1, _⟩ => show win1_0.index t (1 : Fin 2) * 1024 + 1 * k.val = k.val; rw [e1]; omega

/-- The second feature table's block likewise. -/
theorem blk1_rows (c : Dev nD) (t : Fin cfg1.N) (r : Fin 128) (k : Fin 1024) :
    iblk1 V c 1 t (ix2 r k) = V c main_arg1 (ix2 (rowOf t.val r) k) := by
  obtain ⟨-, -, e0, e1, -⟩ := idx_facts t
  show V c main_arg1 (((cfg1.win 1).blk t).view.emb (ix2 r k)) = _
  refine congrArg (V c main_arg1) ?_
  funext a; apply Fin.ext
  match a with
  | ⟨0, _⟩ => show win1_1.index t (0 : Fin 2) * 128 + 1 * r.val = (rowOf t.val r).val; rw [e0, rowOf_val]; omega
  | ⟨1, _⟩ => show win1_1.index t (1 : Fin 2) * 1024 + 1 * k.val = k.val; rw [e1]; omega

/-- The text window's one block is the whole table. -/
theorem blk2_whole (c : Dev nD) (t : Fin cfg1.N) (q : Fin 4096) (k : Fin 1024) :
    iblk1 V c 2 t (ix2 q k) = V c main_v0 (ix2 q k) := by
  obtain ⟨-, -, -, -, e0, e1, -⟩ := idx_facts t
  show V c main_v0 (((cfg1.win 2).blk t).view.emb (ix2 q k)) = _
  refine congrArg (V c main_v0) ?_
  funext a; apply Fin.ext
  match a with
  | ⟨0, _⟩ => show win1_2.index t (0 : Fin 2) * 4096 + 1 * q.val = q.val; rw [e0]; omega
  | ⟨1, _⟩ => show win1_2.index t (1 : Fin 2) * 1024 + 1 * k.val = k.val; rw [e1]; omega

/-- The label block at point `t` holds the labels' rows `128·t + r`. -/
theorem blk3_rows (c : Dev nD) (t : Fin cfg1.N) (r : Fin 128) (q : Fin 4096) :
    iblk1 V c 3 t (ix2 r q) = V c main_arg3 (ix2 (rowOf t.val r) q) := by
  obtain ⟨-, -, -, -, -, -, e0, e1, -⟩ := idx_facts t
  show V c main_arg3 (((cfg1.win 3).blk t).view.emb (ix2 r q)) = _
  refine congrArg (V c main_arg3) ?_
  funext a; apply Fin.ext
  match a with
  | ⟨0, _⟩ => show win1_3.index t (0 : Fin 2) * 128 + 1 * r.val = (rowOf t.val r).val; rw [e0, rowOf_val]; omega
  | ⟨1, _⟩ => show win1_3.index t (1 : Fin 2) * 4096 + 1 * q.val = q.val; rw [e1]; omega

/-- The loss of row `q` of the tables as the region finds them. -/
def rowLossOf (c : Dev nD) : Fin 4096 → EReal :=
  Contrastive.rowLoss (V c main_arg0) (V c main_arg1) (V c main_v0) (V c main_arg3)

/-- The loss of the block at point `t` is the sum of its rows' losses in the whole tables. -/
theorem block_rows (c : Dev nD) (t : Fin cfg1.N) :
    ∑ r : Fin 128, Contrastive.rowLoss (iblk1 V c 0 t) (iblk1 V c 1 t) (iblk1 V c 2 t) (iblk1 V c 3 t) r
      = BlockedSum.blockSum h4096 128 (rowLossOf V c) t.val := by
  unfold BlockedSum.blockSum rowLossOf
  refine Finset.sum_congr rfl fun r _ => ?_
  refine (Contrastive.rowLoss_congr_text (iblk1 V c 0 t) (iblk1 V c 1 t) (V c main_v0) (iblk1 V c 2 t) (iblk1 V c 3 t) r
    (blk2_whole V c t)).trans ?_
  exact Contrastive.rowLoss_of_rows (V c main_arg0) (V c main_arg1) (V c main_arg3) (iblk1 V c 0 t) (iblk1 V c 1 t)
    (iblk1 V c 3 t) (V c main_v0) r (rowOf t.val r) (blk0_rows V c t r) (blk1_rows V c t r) (blk3_rows V c t r)

/-- THE RUNNING TOTAL: after point `n` the output block holds the sum of the row losses over the blocks `0 … n`. -/
theorem outsAt_eq (c : Dev nD) (u w : Fin 1) : ∀ (n : ℕ) (h : n < cfg1.N),
    outsAt1 V c n h (ix2 u w) = BlockedSum.partialSum h4096 128 (rowLossOf V c) n
  | 0, h => by
    have e := (outsAt1_A V c ⟨0, h⟩ rfl).trans (out_A ..)
    refine (congrFun e (ix2 u w)).trans ?_
    refine (BlockLoss.point_value (iblk1 V c 0 ⟨0, h⟩) (iblk1 V c 1 ⟨0, h⟩) (iblk1 V c 2 ⟨0, h⟩) (iblk1 V c 3 ⟨0, h⟩)
      (k1_pay2 (F := Ideal)) u w).trans ?_
    rw [BlockedSum.partialSum_zero, ← block_rows V c ⟨0, h⟩]
    show Ideal.ofBits .f32 0x00000000#32 + _ = _
    rw [Ideal.ofBits_zero_f32, zero_add]
  | n + 1, h => by
    have hN : cfg1.N = 32 := N_1
    have hB : ¬(⟨n + 1, h⟩ : Fin cfg1.N).val % 32 = 0 := by dsimp only; omega
    have e := (outsAt1_B V c ⟨n + 1, h⟩ hB).trans (out_B ..)
    refine (congrFun e (ix2 u w)).trans ?_
    refine (BlockLoss.point_value (iblk1 V c 0 ⟨n + 1, h⟩) (iblk1 V c 1 ⟨n + 1, h⟩) (iblk1 V c 2 ⟨n + 1, h⟩)
      (iblk1 V c 3 ⟨n + 1, h⟩) (outsAt1 V c n (Nat.lt_of_succ_lt h)) u w).trans ?_
    rw [BlockedSum.partialSum_succ, ← block_rows V c ⟨n + 1, h⟩, outsAt_eq c u w n]

/-- The sum of the row losses over all rows, and the output array holding it. -/
def total (c : Dev nD) : EReal := ∑ q : Fin 4096, rowLossOf V c q
def totalArr (c : Dev nD) : Buf (Elt Ideal) ((c : Thread nD τ).loc main_v1) := fun _ => total V c

/-- The one write-back, after the last point, writes the sum over all rows. -/
theorem flushed_eq (c : Dev nD) (t : Fin cfg1.N) (hf : (cfg1.win 4).flush t = true) :
    (dat1 V c).flushed 4 t = ((cfg1.win 4).blk t).view.read (Elt Ideal) (totalArr V c) := by
  have hN : cfg1.N = 32 := N_1
  have h31 : t.val + 1 = 32 := by have := (flush1_4 t).mp hf; have := t.isLt; omega
  show (cfg1.win 4).cut (grid1.coords t) ((dat1 V c).after 4 t) = _
  rw [after1_4]
  funext j
  show outsAt1 V c t.val t.isLt j = total V c
  refine (congrArg (outsAt1 V c t.val t.isLt) (eq_ix2 j)).trans ?_
  refine (outsAt_eq V c (j 0) (j 1) t.val t.isLt).trans ?_
  exact BlockedSum.partialSum_last h4096 (by norm_num : 32 * 128 = 4096) (rowLossOf V c) h31

/-- An index of the array is in point `t`'s block iff each coordinate is in the block's range on its axis. -/
theorem mem_blk (t : Fin cfg1.N) (i : S1x1.Idx) :
    i ∈ ((cfg1.win 4).blk t).view.set ↔ ∀ a : Fin 2, win1_4.index t a * S1x1.size a ≤ (i a).val ∧ (i a).val < win1_4.index t a * S1x1.size a + S1x1.size a := by
  show i ∈ ((View.whole main_v1).slice (win1_4.rect t)).set ↔ _
  rw [View.set_slice_whole, Rect.mem_set_unit]
  exact Iff.rfl

/-- The output array after the region: the sum of the row losses over all rows. -/
theorem final_total (c : Dev nD) : (dat1 V c).arrAt 4 cfg1.N = totalArr V c :=
  (dat1 V c).arrAt_eq_of_cover 4 (totalArr V c) (flushed_eq V c) fun i => by
    have hi0 : (i 0).val < 1 := (i 0).isLt
    have hi1 : (i 1).val < 1 := (i 1).isLt
    have hN : cfg1.N = 32 := N_1
    refine ⟨⟨31, by rw [hN]; omega⟩, (flush1_4 _).mpr rfl, ?_⟩
    rw [mem_blk]
    obtain ⟨-, -, -, -, -, -, -, -, e0, e1⟩ := idx_facts ⟨31, by rw [hN]; omega⟩
    intro a
    match a with
    | ⟨0, _⟩ =>
      show win1_4.index _ (0 : Fin 2) * 1 ≤ (i 0).val ∧ (i 0).val < win1_4.index _ (0 : Fin 2) * 1 + 1
      rw [e0]; omega
    | ⟨1, _⟩ =>
      show win1_4.index _ (1 : Fin 2) * 1 ≤ (i 1).val ∧ (i 1).val < win1_4.index _ (1 : Fin 2) * 1 + 1
      rw [e1]; omega

end Cert.KernelIdeal.Accum

end
-- ==== Proof.KernelResult.lean ====
/-
  The kernel program's result, as a function of its arguments: the mean contrastive loss.

  The first region leaves the text table with rows of unit length in its output array and touches nothing else, so
  the second region finds the two feature tables and the labels as launched and that scaled table beside them.
  The second region leaves in its `1 × 1` output the sum of the row losses over all rows.  The three host operations
  read that one number out and divide it by the number of pairs.
-/
import proofs.«127228_j23708219474588_1_alg».proof.Proof.TextValue
import proofs.«127228_j23708219474588_1_alg».proof.Proof.Accum
import Idealize.ShloMosaic.Lib.StableHlo.Run

set_option maxRecDepth 16384

noncomputable section

namespace Cert.KernelIdeal.Result

open Cert.KernelIdeal Cert.KernelIdeal.Gen
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-- The second region finds the feature tables and the labels as launched: the first region writes none of them. -/
theorem found_arg0 (c : Dev nD) : V1 m ρ c main_arg0 = m ((c : Thread nD τ).loc main_arg0) := W1_of_ne m ρ c main_arg0 (by decide)
theorem found_arg1 (c : Dev nD) : V1 m ρ c main_arg1 = m ((c : Thread nD τ).loc main_arg1) := W1_of_ne m ρ c main_arg1 (by decide)
theorem found_arg3 (c : Dev nD) : V1 m ρ c main_arg3 = m ((c : Thread nD τ).loc main_arg3) := W1_of_ne m ρ c main_arg3 (by decide)

/-- … and the text table with its rows scaled to unit length, as the first region left it. -/
theorem found_text (c : Dev nD) : V1 m ρ c main_v0 = TextValue.scaledText (m ((c : Thread nD τ).loc main_arg2)) :=
  (W1_arr m ρ c 1).trans (TextValue.final_text (V0 m ρ) c)

/-- What the second region leaves in its output array. -/
theorem left_total (c : Dev nD) : W2 m ρ c (Proc.devRef .tc main_v1) = Accum.totalArr (V1 m ρ) c :=
  (W2_arr m ρ c 4).trans (Accum.final_total (V1 m ρ) c)

/-- The sum of the row losses the second region leaves is that of the launched tables, the text rows scaled. -/
theorem total_eq (c : Dev nD) : Accum.total (V1 m ρ) c
    = ∑ q : Fin 4096, Contrastive.rowLoss (m ((c : Thread nD τ).loc main_arg0)) (m ((c : Thread nD τ).loc main_arg1))
        (Contrastive.unitRows (m ((c : Thread nD τ).loc main_arg2))) (m ((c : Thread nD τ).loc main_arg3)) q := by
  unfold Accum.total Accum.rowLossOf
  rw [found_arg0 m ρ c, found_arg1 m ρ c, found_arg3 m ρ c, found_text m ρ c]
  rfl

/-- THE RESULT: the result buffer's final contents are the mean loss of the launched arrays. -/
theorem result_eq (c : Dev nD) :
    W3 m ρ c (Proc.devRef .tc main_v3)
      = fun _ => Contrastive.meanLoss (m ((c : Thread nD τ).loc main_arg0)) (m ((c : Thread nD τ).loc main_arg1))
          (m ((c : Thread nD τ).loc main_arg2)) (m ((c : Thread nD τ).loc main_arg3)) := by
  show StableHlo.after hostOps2 (W2 m ρ c) (Proc.devRef .tc main_v3) = _
  after_results
  rw [left_total m ρ c]
  funext i
  show Ideal.div (Accum.total (V1 m ρ) c) (Ideal.ofBits .f32 0x4B800000#32) = _
  rw [total_eq m ρ c]
  rfl

end Cert.KernelIdeal.Result

end
-- ==== Proof.RefIsLoss.lean ====
/-
  The reference program computes the mean contrastive loss.

  Read one operation at a time, the reference divides every entry of a table by the larger of the square root of its
  row's sum of squares and a small positive constant: the entry of the table with rows of unit length.  A cosine is the
  inner product of a unit feature row and a unit text row (the text table is transposed first, so the product contracts
  the feature row's axis with the transposed table's leading axis).  From a label and a cosine it forms the pair's loss,
  adds the two feature tables' losses, sums over every pair starting from zero, and divides by the number of pairs.
-/
import proofs.«127228_j23708219474588_1_alg».proof.Proof.LossSpec
import proofs.«127228_j23708219474588_1_alg».proof.Proof.Gen.ReferenceIdeal.Read

noncomputable section

namespace Cert.ReferenceIdeal.RefValue

open Cert.ReferenceIdeal Cert.ReferenceIdeal.Read Idealize.ShloMosaic Idealize.ShloMosaic.ValueIdx

/-! ## Where each layout operation reads its operand -/

/-- Summing a row: term `k` of row `b` is the entry `(b, k)`. -/
theorem idx_v1 (b : Fin 4096) (k : Fin 1024) : idx_main_v1 (ix1 b) k = ix2 b k :=
  funext fun a => Fin.ext (by match a with | ⟨0, _⟩ => rfl | ⟨1, _⟩ => rfl)

/-- A row's sum written as a column: entry `(b, u)` of the column is the sum of row `b`. -/
theorem idx_v2 (b : Fin 4096) (u : Fin 1) : idx_main_v2 (ix2 b u) = ix1 b :=
  funext fun a => Fin.ext (by match a with | ⟨0, _⟩ => rfl)

/-- The column spread over the row: entry `(b, k)` reads the column's entry `(b, 0)`. -/
theorem idx_v6 (b : Fin 4096) (k : Fin 1024) : idx_main_v6 (ix2 b k) = ix2 b (0 : Fin 1) :=
  funext fun a => Fin.ext (by match a with | ⟨0, _⟩ => rfl | ⟨1, _⟩ => rfl)

/-- The same three readings for the first feature table's copy of the operations. -/
theorem idx_v9 (b : Fin 4096) (k : Fin 1024) : idx_main_v9 (ix1 b) k = ix2 b k :=
  funext fun a => Fin.ext (by match a with | ⟨0, _⟩ => rfl | ⟨1, _⟩ => rfl)

theorem idx_v10 (b : Fin 4096) (u : Fin 1) : idx_main_v10 (ix2 b u) = ix1 b :=
  funext fun a => Fin.ext (by match a with | ⟨0, _⟩ => rfl)

theorem idx_v14 (b : Fin 4096) (k : Fin 1024) : idx_main_v14 (ix2 b k) = ix2 b (0 : Fin 1) :=
  funext fun a => Fin.ext (by match a with | ⟨0, _⟩ => rfl | ⟨1, _⟩ => rfl)

/-- And for the second feature table's copy. -/
theorem idx_v19 (b : Fin 4096) (k : Fin 1024) : idx_main_v19 (ix1 b) k = ix2 b k :=
  funext fun a => Fin.ext (by match a with | ⟨0, _⟩ => rfl | ⟨1, _⟩ => rfl)

theorem idx_v20 (b : Fin 4096) (u : Fin 1) : idx_main_v20 (ix2 b u) = ix1 b :=
  funext fun a => Fin.ext (by match a with | ⟨0, _⟩ => rfl)

theorem idx_v24 (b : Fin 4096) (k : Fin 1024) : idx_main_v24 (ix2 b k) = ix2 b (0 : Fin 1) :=
  funext fun a => Fin.ext (by match a with | ⟨0, _⟩ => rfl | ⟨1, _⟩ => rfl)

/-- The transposed text table: its entry `(k, b)` is the text table's entry `(b, k)`. -/
theorem idx_v16 (k : Fin 1024) (b : Fin 4096) : idx_main_v16 (ix2 k b) = ix2 b k :=
  funext fun a => Fin.ext (by match a with | ⟨0, _⟩ => rfl | ⟨1, _⟩ => rfl)

theorem idx_v26 (k : Fin 1024) (b : Fin 4096) : idx_main_v26 (ix2 k b) = ix2 b k :=
  funext fun a => Fin.ext (by match a with | ⟨0, _⟩ => rfl | ⟨1, _⟩ => rfl)

/-- The product of a feature table with the transposed text table: term `k` of entry `(a, b)` multiplies the feature
    table's entry `(a, k)` by the transposed table's entry `(k, b)`. -/
theorem lidx_v17 (a b : Fin 4096) (k : Fin 1024) : lidx_main_v17 (ix2 a b) k = ix2 a k :=
  funext fun d => Fin.ext (by match d with | ⟨0, _⟩ => rfl | ⟨1, _⟩ => rfl)

theorem ridx_v17 (a b : Fin 4096) (k : Fin 1024) : ridx_main_v17 (ix2 a b) k = ix2 k b :=
  funext fun d => Fin.ext (by match d with | ⟨0, _⟩ => rfl | ⟨1, _⟩ => rfl)

theorem lidx_v27 (a b : Fin 4096) (k : Fin 1024) : lidx_main_v27 (ix2 a b) k = ix2 a k :=
  funext fun d => Fin.ext (by match d with | ⟨0, _⟩ => rfl | ⟨1, _⟩ => rfl)

theorem ridx_v27 (a b : Fin 4096) (k : Fin 1024) : ridx_main_v27 (ix2 a b) k = ix2 k b :=
  funext fun d => Fin.ext (by match d with | ⟨0, _⟩ => rfl | ⟨1, _⟩ => rfl)

/-! ## The tables with rows of unit length -/

/-- The text table divided by its clamped row lengths. -/
theorem unit_v7 (x2 : (⟨S4096x1024, .f32⟩ : BufTy).Contents (Elt Ideal)) (b : Fin 4096) (k : Fin 1024) :
    val_main_v7 (F := Ideal) x2 (ix2 b k) = Contrastive.unitEntry x2 b k := by
  rw [val_main_v7_apply, val_main_v6_apply, idx_v6, val_main_v5_apply, val_main_v3_apply, val_main_v2_apply, idx_v2,
    val_main_v1_apply, val_main_cst_apply, val_main_v4_apply, val_main_cst_0_apply]
  simp only [val_main_v0_apply, idx_v1, Ideal.mulf_def, Ideal.maximumf_def, Ideal.hostDivf_def, Ideal.hostUnary_sqrt_def,
    Ideal.ofBits_def, Ideal.ofBits_zero_f32, zero_add]
  rfl

/-- The first feature table divided by its clamped row lengths. -/
theorem unit_v15 (x0 : (⟨S4096x1024, .f32⟩ : BufTy).Contents (Elt Ideal)) (b : Fin 4096) (k : Fin 1024) :
    val_main_v15 (F := Ideal) x0 (ix2 b k) = Contrastive.unitEntry x0 b k := by
  rw [val_main_v15_apply, val_main_v14_apply, idx_v14, val_main_v13_apply, val_main_v11_apply, val_main_v10_apply, idx_v10,
    val_main_v9_apply, val_main_cst_1_apply, val_main_v12_apply, val_main_cst_2_apply]
  simp only [val_main_v8_apply, idx_v9, Ideal.mulf_def, Ideal.maximumf_def, Ideal.hostDivf_def, Ideal.hostUnary_sqrt_def,
    Ideal.ofBits_def, Ideal.ofBits_zero_f32, zero_add]
  rfl

/-- The second feature table divided by its clamped row lengths. -/
theorem unit_v25 (x1 : (⟨S4096x1024, .f32⟩ : BufTy).Contents (Elt Ideal)) (b : Fin 4096) (k : Fin 1024) :
    val_main_v25 (F := Ideal) x1 (ix2 b k) = Contrastive.unitEntry x1 b k := by
  rw [val_main_v25_apply, val_main_v24_apply, idx_v24, val_main_v23_apply, val_main_v21_apply, val_main_v20_apply, idx_v20,
    val_main_v19_apply, val_main_cst_3_apply, val_main_v22_apply, val_main_cst_4_apply]
  simp only [val_main_v18_apply, idx_v19, Ideal.mulf_def, Ideal.maximumf_def, Ideal.hostDivf_def, Ideal.hostUnary_sqrt_def,
    Ideal.ofBits_def, Ideal.ofBits_zero_f32, zero_add]
  rfl

/-! ## The cosines -/

/-- The first feature table's cosines: the inner product of unit feature row `a` and unit text row `b`. -/
theorem cos_v17 (x0 x2 : (⟨S4096x1024, .f32⟩ : BufTy).Contents (Elt Ideal)) (a b : Fin 4096) :
    val_main_v17 (F := Ideal) x0 x2 (ix2 a b) = ∑ k : Fin 1024, Contrastive.unitEntry x0 a k * Contrastive.unitEntry x2 b k := by
  rw [val_main_v17_apply]
  refine Finset.sum_congr rfl fun k _ => ?_
  rw [lidx_v17, ridx_v17, val_main_v16_apply, idx_v16, unit_v15, unit_v7]

/-- The second feature table's cosines. -/
theorem cos_v27 (x1 x2 : (⟨S4096x1024, .f32⟩ : BufTy).Contents (Elt Ideal)) (a b : Fin 4096) :
    val_main_v27 (F := Ideal) x1 x2 (ix2 a b) = ∑ k : Fin 1024, Contrastive.unitEntry x1 a k * Contrastive.unitEntry x2 b k := by
  rw [val_main_v27_apply]
  refine Finset.sum_congr rfl fun k _ => ?_
  rw [lidx_v27, ridx_v27, val_main_v26_apply, idx_v26, unit_v25, unit_v7]

/-! ## The loss of a pair -/

/-- The first feature table's pair loss: the label times one minus the cosine, plus one minus the label times the part
    of the cosine above one. -/
theorem pair_v38 (x0 x2 : (⟨S4096x1024, .f32⟩ : BufTy).Contents (Elt Ideal))
    (x3 : (⟨S4096x4096, .f32⟩ : BufTy).Contents (Elt Ideal)) (a b : Fin 4096) :
    val_main_v38 (F := Ideal) x0 x2 x3 (ix2 a b)
      = Contrastive.pairLoss (x3 (ix2 a b)) (∑ k : Fin 1024, Contrastive.unitEntry x0 a k * Contrastive.unitEntry x2 b k) := by
  rw [val_main_v38_apply, val_main_v30_apply, val_main_v29_apply, val_main_v28_apply, val_main_cst_5_apply,
    val_main_v37_apply, val_main_v32_apply, val_main_v31_apply, val_main_cst_6_apply, val_main_v36_apply,
    val_main_v34_apply, val_main_v33_apply, val_main_cst_7_apply, val_main_v35_apply, val_main_cst_8_apply, cos_v17]
  simp only [Ideal.addf_def, Ideal.mulf_def, Ideal.subf_def, Ideal.maximumf_def, Ideal.ofBits_def]
  rfl

/-- The second feature table's pair loss. -/
theorem pair_v49 (x1 x2 : (⟨S4096x1024, .f32⟩ : BufTy).Contents (Elt Ideal))
    (x3 : (⟨S4096x4096, .f32⟩ : BufTy).Contents (Elt Ideal)) (a b : Fin 4096) :
    val_main_v49 (F := Ideal) x1 x2 x3 (ix2 a b)
      = Contrastive.pairLoss (x3 (ix2 a b)) (∑ k : Fin 1024, Contrastive.unitEntry x1 a k * Contrastive.unitEntry x2 b k) := by
  rw [val_main_v49_apply, val_main_v41_apply, val_main_v40_apply, val_main_v39_apply, val_main_cst_9_apply,
    val_main_v48_apply, val_main_v43_apply, val_main_v42_apply, val_main_cst_10_apply, val_main_v47_apply,
    val_main_v45_apply, val_main_v44_apply, val_main_cst_11_apply, val_main_v46_apply, val_main_cst_12_apply, cos_v27]
  simp only [Ideal.addf_def, Ideal.mulf_def, Ideal.subf_def, Ideal.maximumf_def, Ideal.ofBits_def]
  rfl

/-- Both pair losses added: the loss of the pair (feature row `a`, text row `b`). -/
theorem loss_v50 (x0 x1 x2 : (⟨S4096x1024, .f32⟩ : BufTy).Contents (Elt Ideal))
    (x3 : (⟨S4096x4096, .f32⟩ : BufTy).Contents (Elt Ideal)) (a b : Fin 4096) :
    val_main_v50 (F := Ideal) x0 x1 x2 x3 (ix2 a b) = Contrastive.lossRaw x0 x1 (Contrastive.unitRows x2) x3 a b := by
  rw [val_main_v50_apply, pair_v38, pair_v49, Ideal.addf_def]
  rfl

/-! ## The result -/

/-- The reference's result: the sum of every pair's loss, started from zero, divided by the number of pairs. -/
theorem reference_eq (x0 x1 x2 : (⟨Cert.ReferenceIdeal.S4096x1024, .f32⟩ : BufTy).Contents (Elt Ideal)) (x3 : (⟨Cert.ReferenceIdeal.S4096x4096, .f32⟩ : BufTy).Contents (Elt Ideal)) (i : Cert.ReferenceIdeal.S_.Idx) :
    Cert.ReferenceIdeal.Read.val_main_v52 (F := Ideal) x0 x1 x2 x3 i = Contrastive.meanLoss x0 x1 x2 x3 := by
  rw [val_main_v52_apply, val_main_v51_apply, val_main_cst_13_apply, val_main_cst_14_apply, sum_idx2]
  simp only [loss_v50, Ideal.hostDivf_def, Ideal.ofBits_def, Ideal.ofBits_zero_f32, zero_add]
  rfl

end Cert.ReferenceIdeal.RefValue

end
-- ==== Proof.lean ====
/-
  The kernel and its reference compute the same mean contrastive loss.

  The reference scales the rows of the two feature tables and of the text table to unit length (a row's length
  clamped from below), takes the cosine of every feature row with every text row, forms for each pair the loss
  `l · (1 − s) + (1 − l) · max (s − 1) 0` of its label `l` and cosine `s` for both feature tables, sums over all
  `4096 × 4096` pairs from zero, and divides by the number of pairs.

  The kernel program does the same in two regions and a host division.  Its first region scales the text table's
  rows, eight blocks of 512 rows at a time.  Its second region walks the feature tables and the labels in 32 blocks
  of 128 rows: at each point it scales the block's rows, takes the block's cosines against the whole scaled text
  table, sums the block's pair losses into one number and adds it to a running total, which starts at zero at the
  first point.  A row's scaled entries, and hence a row's loss, depend on that row alone, so a block's loss is the
  sum of its rows' losses; and the extended reals are a commutative monoid under addition, so the total of the 32
  block sums is the sum over all rows, whatever the grouping — no finiteness of the inputs is used.  Both programs
  divide that sum by the same constant.

  The frames of the two kernel programs are the generated ones; the reference's is its run with the result
  dropped; no rewrite separates the kernel from its idealization.
-/
import proofs.«127228_j23708219474588_1_alg».proof.Defs
import proofs.«127228_j23708219474588_1_alg».proof.Proof.Gen.Kernel
import proofs.«127228_j23708219474588_1_alg».proof.Proof.Gen.Kernel.Skeleton
import proofs.«127228_j23708219474588_1_alg».proof.Proof.Gen.Kernel.Launch
import proofs.«127228_j23708219474588_1_alg».proof.Proof.Gen.Kernel.Points
import proofs.«127228_j23708219474588_1_alg».proof.Proof.Gen.Kernel.Frame
import proofs.«127228_j23708219474588_1_alg».proof.Proof.Gen.KernelIdeal
import proofs.«127228_j23708219474588_1_alg».proof.Proof.Gen.KernelIdeal.Skeleton
import proofs.«127228_j23708219474588_1_alg».proof.Proof.Gen.KernelIdeal.Launch
import proofs.«127228_j23708219474588_1_alg».proof.Proof.Gen.KernelIdeal.Points
import proofs.«127228_j23708219474588_1_alg».proof.Proof.Gen.KernelIdeal.Frame
import proofs.«127228_j23708219474588_1_alg».proof.Proof.Gen.ReferenceIdeal
import proofs.«127228_j23708219474588_1_alg».proof.Proof.Gen.Pre_finite_inputs
import proofs.«127228_j23708219474588_1_alg».proof.Proof.Gen.ReferenceIdeal.Run
import proofs.«127228_j23708219474588_1_alg».proof.Proof.Gen.ReferenceIdeal.Read
import proofs.«127228_j23708219474588_1_alg».proof.Proof.KernelRun
import proofs.«127228_j23708219474588_1_alg».proof.Proof.KernelResult
import proofs.«127228_j23708219474588_1_alg».proof.Proof.RefIsLoss
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the mean loss of the (agreeing) argument arrays in their result buffers. -/
theorem algebraic : Cert.algebraic_KernelIdeal_ReferenceIdeal := by
  intro m ρ m' ρ' _ hagree
  refine ⟨fun c _ => Contrastive.meanLoss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Result.result_eq m ρ c), (h c).2⟩)
      (Cert.KernelIdeal.RunValue.run_contents m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v52_eq]
    funext i
    rw [Cert.ReferenceIdeal.RefValue.reference_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
